-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) (main_arg2 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  let main_v9 : FVec F S64x3x512x512 .f32 := Host.absf main_arg2
  let main_cst_2 : FVec F S_ .f32 := constant S_ .f32 0x7F800000#32
  let main_v10 : FVec F S64x3x512x512 .f32 := broadcastInDim S64x3x512x512 ![] bcast_S_S64x3x512x512 main_cst_2
  let main_v11 : IVec S64x3x512x512 1 := cmpf .olt main_v9 main_v10
  let main_c_3 : IVec S_ 1 := constantI S_ 1 1#1
  let main_v12 : IVec S_ 1 := (fun x v => Host.reduce IntOp.andi x v reducesTo_S64x3x512x512_S_d0_1_2_3 h_S_) main_v11 main_c_3
  let main_v13 : IVec S_ 1 := andi main_v8 main_v12
  main_v13
-- ==== Kernel.lean ====
abbrev S64x3x512x512 : Shape := ⟨4, ![64, 3, 512, 512]⟩
abbrev S64x786432 : Shape := ⟨2, ![64, 786432]⟩
abbrev S64x1 : Shape := ⟨2, ![64, 1]⟩
abbrev S32x32768 : Shape := ⟨2, ![32, 32768]⟩
abbrev S32x1 : Shape := ⟨2, ![32, 1]⟩
abbrev S32x128 : Shape := ⟨2, ![32, 128]⟩
abbrev S32x256x128 : Shape := ⟨3, ![32, 256, 128]⟩
abbrev S32 : Shape := ⟨1, ![32]⟩
abbrev S64 : Shape := ⟨1, ![64]⟩

abbrev nBuf : Space → Nat
  | .hbm => 8
  | .vmem => 9
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x3x512x512, .f32⟩
  | .hbm, ⟨3, _⟩ => ⟨S64x786432, .f32⟩
  | .hbm, ⟨4, _⟩ => ⟨S64x786432, .f32⟩
  | .hbm, ⟨5, _⟩ => ⟨S64x786432, .f32⟩
  | .hbm, ⟨6, _⟩ => ⟨S64x1, .f32⟩
  | .hbm, ⟨7, _⟩ => ⟨S64, .f32⟩
  | .local _ .vmem, ⟨0, _⟩ => ⟨S32x32768, .f32⟩
  | .local _ .vmem, ⟨1, _⟩ => ⟨S32x32768, .f32⟩
  | .local _ .vmem, ⟨2, _⟩ => ⟨S32x32768, .f32⟩
  | .local _ .vmem, ⟨3, _⟩ => ⟨S32x32768, .f32⟩
  | .local _ .vmem, ⟨4, _⟩ => ⟨S32x32768, .f32⟩
  | .local _ .vmem, ⟨5, _⟩ => ⟨S32x32768, .f32⟩
  | .local _ .vmem, ⟨6, _⟩ => ⟨S32x1, .f32⟩
  | .local _ .vmem, ⟨7, _⟩ => ⟨S32x1, .f32⟩
  | .local _ .vmem, ⟨8, _⟩ => ⟨S32x128, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v57 : BitVec 1 := Scalar.cmpi .eq arg1 c23_i32
  let v58 : BitVec 32 := Scalar.extui v57
  let c0_i32_23 : BitVec 32 := 0#32
  let v59 : BitVec 1 := Scalar.cmpi .ne v58 c0_i32_23
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S64x3x512x512_S64x786432 : S64x3x512x512.ShapeCasts S64x786432
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S32x32768_S32x32768_0_0 : ∀ a, (![0, 0] : Fin 2 → Nat) a + S32x32768.size a ≤ S32x32768.size a
  h_S32x32768 : 0 < S32x32768.numel
  shapeCasts_S32x32768_S32x32768 : S32x32768.ShapeCasts S32x32768
  shapeCasts_S32x32768_S32x256x128 : S32x32768.ShapeCasts S32x256x128
  reduces_S32x256x128_S32x128 : S32x256x128.Reduces [1] S32x128
  reduces_S32x128_S32 : S32x128.Reduces [1] S32
  shapeCasts_S32_S32x1 : S32.ShapeCasts S32x1
  inb_S32x1_S32x1_0_0 : ∀ a, (![0, 0] : Fin 2 → Nat) a + S32x1.size a ≤ S32x1.size a
  h_S32x1 : 0 < S32x1.numel
  shapeCasts_S64x1_S64 : S64x1.ShapeCasts S64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32768.size a ≤ S64x786432.size a
  hwx0_0 : ∀ i : grid0.Coords, EltTy.bits .f32 = 32 ∨ (Rect.block (s := S64x786432) S32x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x32768.size a ≤ S64x786432.size a
  hwx0_1 : ∀ i : grid0.Coords, EltTy.bits .f32 = 32 ∨ (Rect.block (s := S64x786432) S32x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x32768.size a ≤ S64x786432.size a
  hwx0_2 : ∀ i : grid0.Coords, EltTy.bits .f32 = 32 ∨ (Rect.block (s := S64x786432) S32x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S64x1.size a
  hwx0_3 : ∀ i : grid0.Coords, EltTy.bits .f32 = 32 ∨ (Rect.block (s := S64x1) S32x1.size (cc0_transform_3 i) (hinb0_3 i)).WholeWords (EltTy.packing .f32)

variable [Facts₀]

abbrev win0_0 : Pipeline.Window sig grid0 :=
  Pipeline.Window.ofSpec (Memref.whole main_v0) S32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x3x512x512 : Shape := ⟨4, ![64, 3, 512, 512]⟩
abbrev S_ : Shape := ⟨0, ![]⟩
abbrev S64x786432 : Shape := ⟨2, ![64, 786432]⟩
abbrev S64 : Shape := ⟨1, ![64]⟩

abbrev nBuf : Space → Nat
  | .hbm => 77
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S64x3x512x512, .f32⟩
  | .hbm, ⟨3, _⟩ => ⟨S_, .f32⟩
  | .hbm, ⟨4, _⟩ => ⟨S64x3x512x512, .f32⟩
  | .hbm, ⟨5, _⟩ => ⟨S64x3x512x512, .f32⟩
  | .hbm, ⟨6, _⟩ => ⟨S_, .f32⟩
  | .hbm, ⟨7, _⟩ => ⟨S64x3x512x512, .f32⟩
  | .hbm, ⟨8, _⟩ => ⟨S64x3x512x512, .f32⟩
  | .hbm, ⟨9, _⟩ => ⟨S_, .f32⟩
  | .hbm, ⟨10, _⟩ => ⟨S64x3x512x512, .f32⟩
  | .hbm, ⟨11, _⟩ => ⟨S64x3x512x512, .f32⟩
  | .hbm, ⟨12, _⟩ => ⟨S64x3x512x512, .f32⟩
  | .hbm, ⟨13, _⟩ => ⟨S_, .f32⟩
  | .hbm, ⟨14, _⟩ => ⟨S64x3x512x512, .f32⟩
  | .hbm, ⟨15, _⟩ => ⟨S64x3x512x512, .f32⟩
  | .hbm, ⟨16, _⟩ => ⟨S_, .f32⟩
  | .hbm, ⟨17, _⟩ => ⟨S64x3x512x512, .f32⟩
  | .hbm, ⟨18, _⟩ => ⟨S64x3x512x512, .f32⟩
  | .hbm, ⟨19, _⟩ => ⟨S_, .f32⟩
  | .hbm, ⟨20, _⟩ => ⟨S64x3x512x512, .f32⟩
  | .hbm, ⟨21, _⟩ => ⟨S64x3x512x512, .f32⟩
  | .hbm, ⟨22, _⟩ => ⟨S_, .f32⟩
  | .hbm, ⟨23, _⟩ => ⟨S64x3x512x512, .f32⟩
  | .hbm, ⟨24, _⟩ => ⟨S64x3x512x512, .f32⟩
  | .hbm, ⟨25, _⟩ => ⟨S64x3x512x512, .f32⟩
  | .hbm, ⟨26, _⟩ => ⟨S64x3x512x512, .f32⟩
  | .hbm, ⟨27, _⟩ => ⟨S64x3x512x512, .f32⟩
  | .hbm, ⟨28, _⟩ => ⟨S_, .f32⟩
  | .hbm, ⟨29, _⟩ => ⟨S64x3x512x512, .f32⟩
  | .hbm, ⟨30, _⟩ => ⟨S64x3x512x512, .f32⟩
  | .hbm, ⟨31, _⟩ => ⟨S64x3x512x512, .f32⟩
  | .hbm, ⟨32, _⟩ => ⟨S_, .f32⟩
  | .hbm, ⟨33, _⟩ => ⟨S64x3x512x512, .f32⟩
  | .hbm, ⟨34, _⟩ => ⟨S64x3x512x512, .f32⟩
  | .hbm, ⟨35, _⟩ => ⟨S64x3x512x512, .f32⟩
  | .hbm, ⟨36, _⟩ => ⟨S64x3x512x512, .f32⟩
  | .hbm, ⟨37, _⟩ => ⟨S64x3x512x512, .f32⟩
  | .hbm, ⟨38, _⟩ => ⟨S_, .f32⟩
  | .hbm, ⟨39, _⟩ => ⟨S64x3x512x512, .f32⟩
  | .hbm, ⟨40, _⟩ => ⟨S64x3x512x512, .f32⟩
  | .hbm, ⟨41, _⟩ => ⟨S64x3x512x512, .f32⟩
  | .hbm, ⟨42, _⟩ => ⟨S_, .f32⟩
  | .hbm, ⟨43, _⟩ => ⟨S64x3x512x512, .f32⟩
  | .hbm, ⟨44, _⟩ => ⟨S64x3x512x512, .f32⟩
  | .hbm, ⟨45, _⟩ => ⟨S_, .f32⟩
  | .hbm, ⟨46, _⟩ => ⟨S64x3x512x512, .f32⟩
  | .hbm, ⟨47, _⟩ => ⟨S64x3x512x512, .f32⟩
  | .hbm, ⟨48, _⟩ => ⟨S_, .f32⟩
  | .hbm, ⟨49, _⟩ => ⟨S64x3x512x512, .f32⟩
  | .hbm, ⟨50, _⟩ => ⟨S64x3x512x512, .f32⟩
  | .hbm, ⟨51, _⟩ => ⟨S64x3x512x512, .f32⟩
  | .hbm, ⟨52, _⟩ => ⟨S_, .f32⟩
  | .hbm, ⟨53, _⟩ => ⟨S64x3x512x512, .f32⟩
  | .hbm, ⟨54, _⟩ => ⟨S64x3x512x512, .f32⟩
  | .hbm, ⟨55, _⟩ => ⟨S64x3x512x512, .f32⟩
  | .hbm, ⟨56, _⟩ => ⟨S64x3x512x512, .f32⟩
  | .hbm, ⟨57, _⟩ => ⟨S64x3x512x512, .f32⟩
  | .hbm, ⟨58, _⟩ => ⟨S_, .f32⟩
  | .hbm, ⟨59, _⟩ => ⟨S64x3x512x512, .f32⟩
  | .hbm, ⟨60, _⟩ => ⟨S64x3x512x512, .f32⟩
  | .hbm, ⟨61, _⟩ => ⟨S64x3x512x512, .f32⟩
  | .hbm, ⟨62, _⟩ => ⟨S_, .f32⟩
  | .hbm, ⟨63, _⟩ => ⟨S64x3x512x512, .f32⟩
  | .hbm, ⟨64, _⟩ => ⟨S64x3x512x512, .f32⟩
  | .hbm, ⟨65, _⟩ => ⟨S_, .f32⟩
  | .hbm, ⟨66, _⟩ => ⟨S64x3x512x512, .f32⟩
  | .hbm, ⟨67, _⟩ => ⟨S64x3x512x512, .f32⟩
  | .hbm, ⟨68, _⟩ => ⟨S64x3x512x512, .f32⟩
  | .hbm, ⟨69, _⟩ => ⟨S_, .f32⟩
  | .hbm, ⟨70, _⟩ => ⟨S_, .f32⟩
  | .hbm, ⟨71, _⟩ => ⟨S64x3x512x512, .f32⟩
  | .hbm, ⟨72, _⟩ => ⟨S64x3x512x512, .f32⟩
  | .hbm, ⟨73, _⟩ => ⟨S64x3x512x512, .f32⟩
  | .hbm, ⟨74, _⟩ => ⟨S64x786432, .f32⟩
  | .hbm, ⟨75, _⟩ => ⟨S_, .f32⟩
  | .hbm, ⟨76, _⟩ => ⟨S64, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_cst_10 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_16 : Ref sig .tc := ⟨.hbm, 69, rfl⟩
abbrev main_call1_v0 : Ref sig .tc := ⟨.hbm, 70, rfl⟩
abbrev main_call1_v1 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_17 : Ref sig .tc := ⟨.hbm, 75, rfl⟩
abbrev main_v52 : Ref sig .tc := ⟨.hbm, 76, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)
  shapeCasts_S64x3x512x512_S64x786432 : S64x3x512x512.ShapeCasts S64x786432
  reducesTo_S64x786432_S64_d1 : S64x786432.ReducesTo [1] S64
  h_S_ : 0 < S_.numel

variable [Facts₀]

class Facts : Prop extends Facts₀ where

variable [Facts]
-- ==== Proof.CaseValues.lean ====
/- What one run of the kernel body leaves behind, case by case, as values.

   The body keeps a 32x128 accumulator in scratch.  At a grid point whose inner coordinate is 0 it first stores the zero
   block there; at every point it adds, lane by lane, the point's partial sums to what the accumulator holds; at a point
   whose inner coordinate is 23 it also stores the accumulator's row sums into the 32x1 output block.  So, writing
   `step M L X acc` for "acc plus the partial sums of the blocks M, L, X":

     first point of a row block   accumulator := step M L X 0
     a middle point               accumulator := step M L X acc
     last point of a row block    accumulator := step M L X acc,   output block := rowSums (step M L X acc)

   Each of these is the payload of the one store that covers the buffer last; a load of a buffer the body has already
   stored into reads that store's payload. -/
import proofs.«180252_j23905787969963_2_alg».proof.Proof.Gen.KernelIdeal.Frame
import Idealize.ShloMosaic.Lib.Pipeline.Value
import Idealize.ShloMosaic.Lib.Tactic

set_option maxRecDepth 16384

noncomputable section

namespace Cert.KernelIdeal.CaseValue

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The accumulator after one point: what it held plus the point's partial sums (the mean, log-variance and
    observation blocks `M`, `L`, `X`). -/
abbrev step (M L X : Vec F S32x32768 .f32) (acc : Vec F S32x128 .f32) : Vec F S32x128 .f32 :=
  k0_pay1 (k0_pay6 M L X) (k0_pay7 M L X) (k0_pay8 M L X) acc

/-- A middle point leaves `step` of what the accumulator held. -/
theorem scratch_B (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x128 .f32) (harg6 : arg6.IsWhole) (hc0 : ¬cond0_0 i) (hc1 : ¬cond0_1 i)
    (x0 x1 x2 : Vec F S32x32768 .f32) (xs0 : Vec F S32x128 .f32) :
    sout0_B_0 c i arg2 harg2 arg3 harg3 arg4 harg4 arg5 harg5 arg6 harg6 hc0 hc1 x0 x1 x2 xs0 = step x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S32x32768) hz, View.ld_unit_zero (S := S32x128) hz]

/-- The zero block the first point of a row block stores into the accumulator. -/
abbrev zeros : Vec F S32x128 .f32 := k0_pay3

/-- The first point of a row block leaves `step` of the zero block. -/
theorem scratch_A (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x128 .f32) (harg6 : arg6.IsWhole) (hc0 : cond0_0 i) (hc1 : ¬cond0_1 i)
    (x0 x1 x2 : Vec F S32x32768 .f32) :
    sout0_A_0 c i arg2 harg2 arg3 harg3 arg4 harg4 arg5 harg5 arg6 harg6 hc0 hc1 x0 x1 x2 = step x0 x1 x2 zeros := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S32x128) hz, View.readCov_unit_zero (S := S32x128) _ hz]
  simp only [View.readAt_eq_ld, harg2.read_unread, harg3.read_unread, harg4.read_unread, harg6.read_unread,
    View.ld_unit_zero (S := S32x32768) hz, View.ld_unit_zero (S := S32x128) hz]

/-- The last point of a row block leaves `step` of what the accumulator held, -/
theorem scratch_C (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x128 .f32) (harg6 : arg6.IsWhole) (hc0 : ¬cond0_0 i) (hc1 : cond0_1 i)
    (x0 x1 x2 : Vec F S32x32768 .f32) (xs0 : Vec F S32x128 .f32) :
    sout0_C_0 c i arg2 harg2 arg3 harg3 arg4 harg4 arg5 harg5 arg6 harg6 hc0 hc1 x0 x1 x2 xs0 = step x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S32x128) hz]
  simp only [View.readAt_eq_ld, harg2.read_unread, harg3.read_unread, harg4.read_unread, harg6.read_unread,
    View.ld_unit_zero (S := S32x32768) hz, View.ld_unit_zero (S := S32x128) hz]

/-- and stores that accumulator's row sums into the output block. -/
theorem out_C (c : Dev nD) (i : grid0.Coords) (arg2 : Memref sig .tc .vmem S32x32768 .f32) (harg2 : arg2.IsWhole) (arg3 : Memref sig .tc .vmem S32x32768 .f32) (harg3 : arg3.IsWhole) (arg4 : Memref sig .tc .vmem S32x32768 .f32) (harg4 : arg4.IsWhole) (arg5 : Memref sig .tc .vmem S32x1 .f32) (harg5 : arg5.IsWhole) (arg6 : Memref sig .tc .vmem S32x128 .f32) (harg6 : arg6.IsWhole) (hc0 : ¬cond0_0 i) (hc1 : cond0_1 i)
    (x0 x1 x2 : Vec F S32x32768 .f32) (xs0 : Vec F S32x128 .f32) :
    out0_C_3 c i arg2 harg2 arg3 harg3 arg4 harg4 arg5 harg5 arg6 harg6 hc0 hc1 x0 x1 x2 xs0 = k0_pay2 (step x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S32x1) hz, View.readCov_unit_zero (S := S32x128) _ hz]
  simp only [View.readAt_eq_ld, harg2.read_unread, harg3.read_unread, harg4.read_unread, harg6.read_unread,
    View.ld_unit_zero (S := S32x32768) hz, View.ld_unit_zero (S := S32x128) hz]

end Cert.KernelIdeal.CaseValue

end
-- ==== Proof.Literals.lean ====
/- The float literals that the two programs spell with exact dyadic values, as the extended reals their
   patterns denote. Only the literals whose VALUE enters an identity are evaluated here (the affine maps
   before and after the rounding, the halves of the two CDF forms, the zero of the negation and of the sums);
   the literals both programs share inside one and the same expression are never opened. -/
import Idealize.ShloMosaic.PureOps.Ideal

noncomputable section

namespace Cert.DiscGauss.Lit

open Idealize.ShloMosaic

/-- `+0.0` denotes `0`. -/
theorem zero : Ideal.ofBits .f32 0x00000000#32 = 0 := by
  simp [Ideal.ofBits, Ideal.ieee]

/-- `1.0` denotes `1`. -/
theorem one : Ideal.ofBits .f32 0x3F800000#32 = ((1 : ℝ) : EReal) := by
  simp [Ideal.ofBits, Ideal.ieee, -EReal.coe_mul]; norm_num

/-- `2.0` denotes `2`. -/
theorem two : Ideal.ofBits .f32 0x40000000#32 = ((2 : ℝ) : EReal) := by
  simp [Ideal.ofBits, Ideal.ieee, -EReal.coe_mul]; norm_num

/-- `255.0` denotes `255`. -/
theorem c255 : Ideal.ofBits .f32 0x437F0000#32 = ((255 : ℝ) : EReal) := by
  simp [Ideal.ofBits, Ideal.ieee, -EReal.coe_mul]; norm_num

/-- `256.0` denotes `256`. -/
theorem c256 : Ideal.ofBits .f32 0x43800000#32 = ((256 : ℝ) : EReal) := by
  simp [Ideal.ofBits, Ideal.ieee, -EReal.coe_mul]; norm_num

/-- `127.5` denotes `255/2`. -/
theorem c127_5 : Ideal.ofBits .f32 0x42FF0000#32 = ((255 / 2 : ℝ) : EReal) := by
  simp [Ideal.ofBits, Ideal.ieee, -EReal.coe_mul]; norm_num

/-- `0.0078125` denotes `1/128`. -/
theorem c1_128 : Ideal.ofBits .f32 0x3C000000#32 = ((1 / 128 : ℝ) : EReal) := by
  simp [Ideal.ofBits, Ideal.ieee, -EReal.coe_mul]; norm_num

/-- `-0.99609375` denotes `-255/256`. -/
theorem cm255_256 : Ideal.ofBits .f32 0xBF7F0000#32 = ((-(255 / 256) : ℝ) : EReal) := by
  simp [Ideal.ofBits, Ideal.ieee, -EReal.coe_mul]; norm_num

/-- `0.5` denotes `1/2`. -/
theorem half : Ideal.ofBits .f32 0x3F000000#32 = ((1 / 2 : ℝ) : EReal) := by
  simp [Ideal.ofBits, Ideal.ieee, -EReal.coe_mul]; norm_num

end Cert.DiscGauss.Lit

end
-- ==== Proof.LogProb.lean ====
/- One element's term of the log-likelihood, in the two spellings the programs use, and their agreement on reals.

   With  e = exp(-l),  c = m - centre(x),  h the shared half-bin literal,  a(v) = s·(v + k·v·v·v)  (s, k shared
   literals),  both programs compute   log (max(floor, D))   where

     kernel     D = 1/2 · (tanh a(e·(c + h)) − tanh a(e·(c − h)))
     reference  D = 1/2 · (1 + tanh a(e·(c + h))) − 1/2 · (1 + tanh a(e·(c − h)))

   and the selected bin's centre is

     kernel     centre(x) = round(x · 255/2 + 255/2) · 1/128 + (−255/256)
     reference  centre(x) = (2 · round((x + 1)/2 · 255) + 1) / 256 − 1          (round: to nearest, ties to even).

   The two centres are equal for a real x: the arguments of the rounding are the same real, and the two affine maps of
   the rounded integer are the same polynomial.  The two D's are equal because a tanh value is always a real (also at
   ±∞), so the products distribute.  The negation  0 − l  of the kernel is  −l.  Nothing else differs: the literals
   h, k, s and floor are the same words in both programs and are never evaluated. -/
import proofs.«180252_j23905787969963_2_alg».proof.Proof.Literals

noncomputable section

namespace Cert.DiscGauss

open Idealize.ShloMosaic

/-- The argument of the tanh in the CDF approximation: `s · (v + k·v·v·v)`, the products associated to the left as
    both programs associate them. -/
def cdfArg (v : EReal) : EReal :=
  Ideal.ofBits .f32 0x3F4C422A#32 * (v + Ideal.ofBits .f32 0x3D372713#32 * v * v * v)

/-- The selected bin's centre as the kernel spells it. -/
def centreK (x : EReal) : EReal :=
  Ideal.liftRound Ideal.roundHalfEven (x * Ideal.ofBits .f32 0x42FF0000#32 + Ideal.ofBits .f32 0x42FF0000#32)
    * Ideal.ofBits .f32 0x3C000000#32 + Ideal.ofBits .f32 0xBF7F0000#32

/-- The selected bin's centre as the reference spells it. -/
def centreR (x : EReal) : EReal :=
  Ideal.div (Ideal.ofBits .f32 0x40000000#32
      * Ideal.liftRound Ideal.roundHalfEven
          (Ideal.div (x + Ideal.ofBits .f32 0x3F800000#32) (Ideal.ofBits .f32 0x40000000#32) * Ideal.ofBits .f32 0x437F0000#32)
      + Ideal.ofBits .f32 0x3F800000#32) (Ideal.ofBits .f32 0x43800000#32)
    - Ideal.ofBits .f32 0x3F800000#32

/-- One element's log-probability as the kernel spells it (mean `m`, log-variance `l`, observation `x`). -/
def logProbK (m l x : EReal) : EReal :=
  Ideal.log (max (Ideal.ofBits .f32 0x2EDBE6FF#32)
    (Ideal.ofBits .f32 0x3F000000#32
      * (Ideal.tanh (cdfArg (Ideal.exp (Ideal.ofBits .f32 0x00000000#32 - l) * (m - centreK x + Ideal.ofBits .f32 0x3B808081#32)))
        - Ideal.tanh (cdfArg (Ideal.exp (Ideal.ofBits .f32 0x00000000#32 - l) * (m - centreK x - Ideal.ofBits .f32 0x3B808081#32))))))

/-- One element's log-probability as the reference spells it. -/
def logProbR (m l x : EReal) : EReal :=
  Ideal.log (max (Ideal.ofBits .f32 0x2EDBE6FF#32)
    (Ideal.ofBits .f32 0x3F000000#32
        * (Ideal.ofBits .f32 0x3F800000#32
            + Ideal.tanh (cdfArg (Ideal.exp (-l) * (m - centreR x + Ideal.ofBits .f32 0x3B808081#32))))
      - Ideal.ofBits .f32 0x3F000000#32
        * (Ideal.ofBits .f32 0x3F800000#32
            + Ideal.tanh (cdfArg (Ideal.exp (-l) * (m - centreR x - Ideal.ofBits .f32 0x3B808081#32))))))

/-- A tanh value is a real number, at the infinities too (`tanh(±∞) = ±1`). -/
theorem tanh_real (y : EReal) : ∃ r : ℝ, Ideal.tanh y = (r : EReal) := by
  induction y using EReal.rec with
  | bot => exact ⟨-1, by rw [Ideal.tanh_bot, EReal.coe_neg, EReal.coe_one]⟩
  | coe r => exact ⟨Real.tanh r, rfl⟩
  | top => exact ⟨1, by rw [Ideal.tanh_top, EReal.coe_one]⟩

/-- The two spellings of the bin centre agree at a real observation. -/
theorem centre_eq (x : ℝ) : centreK (x : EReal) = centreR (x : EReal) := by
  have e : (x + 1) * (1 / 2) * 255 = x * (255 / 2) + 255 / 2 := by ring
  unfold centreK centreR
  simp only [Lit.c127_5, Lit.c1_128, Lit.cm255_256, Lit.one, Lit.two, Lit.c255, Lit.c256,
    Ideal.div_coe (by norm_num : (2 : ℝ) ≠ 0), Ideal.div_coe (by norm_num : (256 : ℝ) ≠ 0),
    ← EReal.coe_mul, ← EReal.coe_add, ← EReal.coe_sub, Ideal.liftRound_coe, e]
  congr 1
  ring

/-- `1/2 · (A − B) = 1/2 · (1 + A) − 1/2 · (1 + B)` for real `A`, `B`. -/
theorem half_diff (A B : EReal) (hA : ∃ a : ℝ, A = (a : EReal)) (hB : ∃ b : ℝ, B = (b : EReal)) :
    Ideal.ofBits .f32 0x3F000000#32 * (A - B)
      = Ideal.ofBits .f32 0x3F000000#32 * (Ideal.ofBits .f32 0x3F800000#32 + A)
        - Ideal.ofBits .f32 0x3F000000#32 * (Ideal.ofBits .f32 0x3F800000#32 + B) := by
  obtain ⟨a, rfl⟩ := hA
  obtain ⟨b, rfl⟩ := hB
  rw [Lit.half, Lit.one]
  simp only [← EReal.coe_sub, ← EReal.coe_add, ← EReal.coe_mul]
  congr 1
  ring

/-- The two spellings of one element's log-probability agree at real inputs. -/
theorem logProb_eq (m l x : ℝ) : logProbK (m : EReal) (l : EReal) (x : EReal) = logProbR (m : EReal) (l : EReal) (x : EReal) := by
  unfold logProbK logProbR
  rw [centre_eq, Lit.zero, zero_sub, half_diff _ _ (tanh_real _) (tanh_real _)]

end Cert.DiscGauss

end
-- ==== Proof.PayloadAt.lean ====
/- The two stores of the kernel body read at a coordinate, over the extended reals.

   The accumulating store: the block of 32x32768 log-probabilities is re-tiled 32x256x128 (column `k·128 + l` becomes row
   `k`, lane `l`) and summed over `k`, lane by lane, onto the accumulator: at row `r`, lane `l` the accumulator gains the
   256 log-probabilities of row `r` at the columns `k·128 + l`.  The final store: row `r` of the 32x1 output block is
   the sum of the accumulator's row `r` over its 128 lanes.  Each log-probability is the per-element function of the
   three input blocks at that position. -/
import proofs.«180252_j23905787969963_2_alg».proof.Proof.CaseValues
import proofs.«180252_j23905787969963_2_alg».proof.Proof.LogProb
import Idealize.ShloMosaic.Lib.ValueIdx
import Idealize.ShloMosaic.PureOps.Ideal.Laws

set_option maxRecDepth 16384

noncomputable section

namespace Cert.KernelIdeal.PayloadAt

open Idealize.ShloMosaic Idealize.ShloMosaic.TcCoe Idealize.SL.Sem Idealize.ShloMosaic.ValueIdx
open Cert.KernelIdeal Cert.KernelIdeal.Gen Cert.KernelIdeal.CaseValue Cert.DiscGauss

/-- The block of log-probabilities of a point's three input blocks. -/
def logProbs (M L X : Vec Ideal S32x32768 .f32) : FVec Ideal S32x32768 .f32 :=
  fun j => logProbK (M j) (L j) (X j)

theorem step_eq (M L X : Vec Ideal S32x32768 .f32) (acc : Vec Ideal S32x128 .f32) :
    step M L X acc = addf (F := Ideal) (φ := .f32) acc (multiReduction (F := Ideal) .add [1] S32x128 (shapeCast S32x256x128 (logProbs M L X) shapeCasts_S32x32768_S32x256x128) 0x00000000#32 reduces_S32x256x128_S32x128 (.inl rfl) rfl) := by
  simp only [k0_pay1, k0_pay6, k0_pay7, k0_pay8, k0_pay5, k0_pay4, shapeCast_self]
  rfl

/-- Column `k·128 + l` of a 32768-wide block: row `k`, lane `l` of its 256x128 re-tiling. -/
abbrev col (k : Fin 256) (l : Fin 128) : Fin 32768 := ⟨k.val * 128 + l.val, by have := k.isLt; have := l.isLt; omega⟩

/-- One step of the accumulator at row `r`, lane `l`: what it held there plus the 256 log-probabilities of the
    point's blocks in row `r` at the columns of lane `l`. -/
theorem step_at (M L X : Vec Ideal S32x32768 .f32) (acc : Vec Ideal S32x128 .f32) (r : Fin 32) (l : Fin 128) :
    step M L X acc (ix2 r l)
      = acc (ix2 r l) + ∑ k : Fin 256, logProbK (M (ix2 r (col k l))) (L (ix2 r (col k l))) (X (ix2 r (col k l))) := by
  rw [step_eq]
  show acc (ix2 r l) + _ = _
  refine congrArg (acc (ix2 r l) + ·) ?_
  refine (Ideal.multiReduction_add_single (φ := .f32) _ 0x00000000#32 reduces_S32x256x128_S32x128 (.inl rfl) rfl (ix2 r l)).trans ?_
  refine Finset.sum_congr rfl fun k _ => ?_
  exact shapeCast_apply (logProbs M L X) shapeCasts_S32x32768_S32x256x128 _ (ix2 r (col k l)) (by
    rw [Shape.rowMajor_val_two, Shape.rowMajor_val_three]
    show r.val * 32768 + (k.val * 128 + l.val) = (r.val * 256 + k.val) * 128 + l.val
    omega)

/-- The output block at row `r` (its one column): the sum of the accumulator's row `r` over the 128 lanes. -/
theorem rowSums_at (v : Vec Ideal S32x128 .f32) (r : Fin 32) (u : Fin 1) :
    k0_pay2 v (ix2 r u) = ∑ l : Fin 128, v (ix2 r l) := by
  unfold k0_pay2
  refine (shapeCast_apply _ shapeCasts_S32_S32x1 (ix2 r u) (ix1 r) (by
    rw [Shape.rowMajor_val_one, Shape.rowMajor_val_two]
    show r.val = r.val * 1 + u.val
    have := u.isLt; omega)).trans ?_
  refine (Ideal.multiReduction_add_single (φ := .f32) _ 0x00000000#32 reduces_S32x128_S32 (.inl rfl) rfl (ix1 r)).trans ?_
  refine Finset.sum_congr rfl fun l _ => ?_
  exact congrArg v (funext fun a => Fin.ext (by match a with | ⟨0, _⟩ => rfl | ⟨1, _⟩ => rfl))

end Cert.KernelIdeal.PayloadAt

end
-- ==== Proof.LibTileSum.lean ====
/- Sums over a range cut into equal tiles.

   A sum over the first `a·b` naturals is the sum over `a` tiles of `b` consecutive naturals each; cutting each tile
   again gives the three-level form a tiled, lane-preserving accumulation produces: tile `j`, row `k` inside the tile,
   lane `l` inside the row, at position `j·(b·c) + k·c + l` — in whatever order the three sums are taken, since the
   value monoid is commutative. -/
import Mathlib.Algebra.BigOperators.Intervals
import Mathlib.Algebra.BigOperators.Fin

namespace Cert.TileSum

open Finset

/-- A sum over `range (a * b)` is the sum over `a` consecutive tiles of length `b`. -/
theorem sum_range_mul {M : Type*} [AddCommMonoid M] (g : ℕ → M) (a b : ℕ) :
    ∑ n ∈ range (a * b), g n = ∑ i ∈ range a, ∑ j ∈ range b, g (i * b + j) := by
  induction a with
  | zero => simp
  | succ a ih => rw [Nat.succ_mul, sum_range_add, ih, sum_range_succ]

/-- Three levels, the innermost (lane) sum taken OUTERMOST: the sum over lanes `l`, tiles `j` and rows `k` of the
    value at `j·(b·c) + k·c + l` is the sum over `range (a·(b·c))`. -/
theorem sum_lanes_tiles_rows {M : Type*} [AddCommMonoid M] (g : ℕ → M) (a b c : ℕ) :
    ∑ l ∈ range c, ∑ j ∈ range a, ∑ k ∈ range b, g (j * (b * c) + k * c + l)
      = ∑ n ∈ range (a * (b * c)), g n := by
  rw [sum_range_mul g a (b * c), sum_comm]
  refine sum_congr rfl fun j _ => ?_
  rw [sum_range_mul (fun n => g (j * (b * c) + n)) b c, sum_comm]
  refine sum_congr rfl fun k _ => sum_congr rfl fun l _ => ?_
  rw [Nat.add_assoc]

end Cert.TileSum
-- ==== Proof.Accumulate.lean ====
/- The accumulator across the grid, and the block the kernel finally writes.

   The grid is 2 row blocks x 24 column tiles, the column tile the inner coordinate: point `t` works on rows
   32·(t/24) … 32·(t/24)+31 and columns (t%24)·32768 … of the flattened 64 x 786432 arrays.  Write e(R, C) for the
   log-probability of entry (R, C).  By induction on the point, after point `n` the accumulator's row `r`, lane `l` is

        Σ_{j ≤ n%24} Σ_{k < 256}  e(32·(n/24) + r,  j·32768 + k·128 + l):

   the first point of a row block starts from the zero block, every other point from what the point before left, and each
   adds its own tile.  At the last point of a row block (n%24 = 23) the kernel sums the accumulator's rows over the 128
   lanes, and 128 lanes x 24 tiles x 256 columns per lane are exactly the 786432 columns, so row `r` of the output block
   is  Σ_{C < 786432} e(32·(n/24) + r, C),  whatever the order of the sums (extended-real addition is commutative and
   associative). -/
import proofs.«180252_j23905787969963_2_alg».proof.Proof.PayloadAt
import proofs.«180252_j23905787969963_2_alg».proof.Proof.LibTileSum
import Idealize.ShloMosaic.Lib.Pipeline.Value

set_option maxRecDepth 16384

noncomputable section

namespace Cert.KernelIdeal.Accum

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.CaseValue Cert.KernelIdeal.PayloadAt Cert.DiscGauss
open Finset

variable (m : (ℓ : Loc nD τ sig) → Buf (Elt Ideal) ℓ)

/-- Where the windows' blocks sit: grid point `t` is row block `t / 24`, column tile `t % 24`; the three inputs'
    blocks are at (row block, column tile), the output's at (row block, 0). -/
theorem idx_facts : ∀ t : Fin cfg0.N,
    (win0_0.index t (0 : Fin 2) = t.val / 24 ∧ win0_0.index t (1 : Fin 2) = t.val % 24)
    ∧ (win0_1.index t (0 : Fin 2) = t.val / 24 ∧ win0_1.index t (1 : Fin 2) = t.val % 24)
    ∧ (win0_2.index t (0 : Fin 2) = t.val / 24 ∧ win0_2.index t (1 : Fin 2) = t.val % 24)
    ∧ (win0_3.index t (0 : Fin 2) = t.val / 24 ∧ win0_3.index t (1 : Fin 2) = 0) :=
  (by decide +kernel : ∀ t : Fin grid0.N, _)

/-- The three flattened input arrays as the region finds them. -/
abbrev arrM (c : Dev nD) : S64x786432.Idx → EReal := V m c main_v0
abbrev arrL (c : Dev nD) : S64x786432.Idx → EReal := V m c main_v1
abbrev arrX (c : Dev nD) : S64x786432.Idx → EReal := V m c main_v2

/-- Entry (r, q) of the mean's block at point `t` is entry (32·(t/24) + r, (t%24)·32768 + q) of its array. -/
theorem blkM_apply (c : Dev nD) (t : Fin cfg0.N) (r : Fin 32) (q : Fin 32768) (R : Fin 64) (C : Fin 786432)
    (hR : R.val = 32 * (t.val / 24) + r.val) (hC : C.val = (t.val % 24) * 32768 + q.val) :
    (iblk m c 0 t : Vec Ideal S32x32768 .f32) (ix2 r q) = arrM m c (ix2 R C) := by
  unfold iblk
  rw [View.read_apply]
  show V m c main_v0 _ = V m c main_v0 _
  congr 1
  funext a
  apply Fin.ext
  match a with
  | ⟨0, _⟩ => show win0_0.index t 0 * 32 + 1 * r.val = R.val; rw [(idx_facts t).1.1, hR]; omega
  | ⟨1, _⟩ => show win0_0.index t 1 * 32768 + 1 * q.val = C.val; rw [(idx_facts t).1.2, hC]; omega

/-- The same for the log-variance's block, -/
theorem blkL_apply (c : Dev nD) (t : Fin cfg0.N) (r : Fin 32) (q : Fin 32768) (R : Fin 64) (C : Fin 786432)
    (hR : R.val = 32 * (t.val / 24) + r.val) (hC : C.val = (t.val % 24) * 32768 + q.val) :
    (iblk m c 1 t : Vec Ideal S32x32768 .f32) (ix2 r q) = arrL m c (ix2 R C) := by
  unfold iblk
  rw [View.read_apply]
  show V m c main_v1 _ = V m c main_v1 _
  congr 1
  funext a
  apply Fin.ext
  match a with
  | ⟨0, _⟩ => show win0_1.index t 0 * 32 + 1 * r.val = R.val; rw [(idx_facts t).2.1.1, hR]; omega
  | ⟨1, _⟩ => show win0_1.index t 1 * 32768 + 1 * q.val = C.val; rw [(idx_facts t).2.1.2, hC]; omega

/-- and for the observation's. -/
theorem blkX_apply (c : Dev nD) (t : Fin cfg0.N) (r : Fin 32) (q : Fin 32768) (R : Fin 64) (C : Fin 786432)
    (hR : R.val = 32 * (t.val / 24) + r.val) (hC : C.val = (t.val % 24) * 32768 + q.val) :
    (iblk m c 2 t : Vec Ideal S32x32768 .f32) (ix2 r q) = arrX m c (ix2 R C) := by
  unfold iblk
  rw [View.read_apply]
  show V m c main_v2 _ = V m c main_v2 _
  congr 1
  funext a
  apply Fin.ext
  match a with
  | ⟨0, _⟩ => show win0_2.index t 0 * 32 + 1 * r.val = R.val; rw [(idx_facts t).2.2.1.1, hR]; omega
  | ⟨1, _⟩ => show win0_2.index t 1 * 32768 + 1 * q.val = C.val; rw [(idx_facts t).2.2.1.2, hC]; omega

/-- The log-probability of entry (R, C) of the flattened arrays, on natural-number coordinates (0 off the arrays, where
    it is never read). -/
def elt (c : Dev nD) (R C : ℕ) : EReal :=
  if h : R < 64 ∧ C < 786432 then
    logProbK (arrM m c (ix2 ⟨R, h.1⟩ ⟨C, h.2⟩)) (arrL m c (ix2 ⟨R, h.1⟩ ⟨C, h.2⟩)) (arrX m c (ix2 ⟨R, h.1⟩ ⟨C, h.2⟩))
  else 0

/-- One point's contribution to the accumulator at row `r`, lane `l`: the 256 entries of row `32·(t/24) + r` in column
    tile `t % 24` at the columns of lane `l`. -/
theorem tile_at (c : Dev nD) (t : Fin cfg0.N) (r : Fin 32) (l : Fin 128) :
    ∑ k : Fin 256, logProbK ((iblk m c 0 t : Vec Ideal S32x32768 .f32) (ix2 r (col k l)))
        ((iblk m c 1 t : Vec Ideal S32x32768 .f32) (ix2 r (col k l))) ((iblk m c 2 t : Vec Ideal S32x32768 .f32) (ix2 r (col k l)))
      = ∑ k ∈ range 256, elt m c (32 * (t.val / 24) + r.val) ((t.val % 24) * (256 * 128) + k * 128 + l.val) := by
  have hN : t.val < 48 := lt_of_lt_of_eq t.isLt (show cfg0.N = 48 from N_0)
  rw [Finset.sum_range (fun k => elt m c (32 * (t.val / 24) + r.val) ((t.val % 24) * (256 * 128) + k * 128 + l.val))]
  refine Finset.sum_congr rfl fun k _ => ?_
  have hR : 32 * (t.val / 24) + r.val < 64 := by have := r.isLt; omega
  have hC : (t.val % 24) * (256 * 128) + k.val * 128 + l.val < 786432 := by have := k.isLt; have := l.isLt; omega
  unfold elt
  rw [dif_pos ⟨hR, hC⟩,
    blkM_apply m c t r (col k l) ⟨_, hR⟩ ⟨_, hC⟩ rfl (by show (t.val % 24) * (256 * 128) + k.val * 128 + l.val = (t.val % 24) * 32768 + (k.val * 128 + l.val); omega),
    blkL_apply m c t r (col k l) ⟨_, hR⟩ ⟨_, hC⟩ rfl (by show (t.val % 24) * (256 * 128) + k.val * 128 + l.val = (t.val % 24) * 32768 + (k.val * 128 + l.val); omega),
    blkX_apply m c t r (col k l) ⟨_, hR⟩ ⟨_, hC⟩ rfl (by show (t.val % 24) * (256 * 128) + k.val * 128 + l.val = (t.val % 24) * 32768 + (k.val * 128 + l.val); omega)]

/-- The sum of row `R` over column tile `j` at the columns of lane `l`. -/
def rowTile (c : Dev nD) (R j l : ℕ) : EReal := ∑ k ∈ range 256, elt m c R (j * (256 * 128) + k * 128 + l)

/-- The zero block is zero. -/
theorem zeros_apply (i : S32x128.Idx) : (zeros (F := Ideal) : Vec Ideal S32x128 .f32) i = 0 := by
  show k0_pay3 (F := Ideal) i = 0
  unfold k0_pay3
  simp only [shapeCast_self]
  exact Lit.zero

/-- What one point leaves in the accumulator: what it found there (zero at the first point of a row block) plus the
    point's tile. -/
theorem acc_step (c : Dev nD) (t : Fin cfg0.N) (r : Fin 32) (l : Fin 128) :
    (outsAt0 m c t.val t.isLt).2 (ix2 r l)
      = (if t.val % 24 = 0 then 0 else (outsAt0 m c (t.val - 1) (Nat.lt_of_le_of_lt (Nat.sub_le _ _) t.isLt)).2 (ix2 r l))
        + rowTile m c (32 * (t.val / 24) + r.val) (t.val % 24) l.val := by
  have hN : t.val < 48 := lt_of_lt_of_eq t.isLt (show cfg0.N = 48 from N_0)
  unfold rowTile
  rw [← tile_at m c t r l]
  by_cases h0 : t.val % 24 = 0
  · have h1 : ¬t.val % 24 = 23 := by omega
    rw [if_pos h0, outsAt0_A m c t h0 h1]
    dsimp only
    rw [scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
    rw [step_at (iblk m c 0 t) (iblk m c 1 t) (iblk m c 2 t) zeros r l, zeros_apply]
  · rw [if_neg h0]
    by_cases h1 : t.val % 24 = 23
    · rw [outsAt0_C m c t h0 h1]
      dsimp only
      rw [scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _]
      rw [step_at (iblk m c 0 t) (iblk m c 1 t) (iblk m c 2 t) _ r l]
    · rw [outsAt0_B m c t h0 h1]
      dsimp only
      rw [scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) _]
      rw [step_at (iblk m c 0 t) (iblk m c 1 t) (iblk m c 2 t) _ r l]

/-- THE ACCUMULATOR. After point `n` it holds, at row `r` and lane `l`, the sum over the column tiles `0 … n % 24` of
    row `32·(n/24) + r` at the columns of lane `l` — by induction on the point. -/
theorem acc_eq (c : Dev nD) : ∀ (n : ℕ) (h : n < cfg0.N) (r : Fin 32) (l : Fin 128),
    (outsAt0 m c n h).2 (ix2 r l) = ∑ j ∈ range (n % 24 + 1), rowTile m c (32 * (n / 24) + r.val) j l.val
  | 0, h, r, l => by
    have e := acc_step m c ⟨0, h⟩ r l
    rw [if_pos (Nat.zero_mod 24), zero_add] at e
    rw [e]
    simp
  | n + 1, h, r, l => by
    have e := acc_step m c ⟨n + 1, h⟩ r l
    by_cases h0 : (n + 1) % 24 = 0
    · rw [if_pos h0, zero_add] at e
      rw [e]
      show _ = ∑ j ∈ range ((n + 1) % 24 + 1), rowTile m c (32 * ((n + 1) / 24) + r.val) j l.val
      rw [h0, Finset.sum_range_one]
    · rw [if_neg h0] at e
      rw [e]
      show (outsAt0 m c n _).2 (ix2 r l) + rowTile m c (32 * ((n + 1) / 24) + r.val) ((n + 1) % 24) l.val
        = ∑ j ∈ range ((n + 1) % 24 + 1), rowTile m c (32 * ((n + 1) / 24) + r.val) j l.val
      rw [acc_eq c n (Nat.lt_of_succ_lt h) r l, Finset.sum_range_succ _ ((n + 1) % 24)]
      have e1 : (n + 1) / 24 = n / 24 := by omega
      have e2 : (n + 1) % 24 = n % 24 + 1 := by omega
      rw [e1, e2]

/-- THE OUTPUT BLOCK. At the last point of a row block, row `r` of the output block is the whole of row
    `32·(t/24) + r` of the log-probabilities: 128 lanes x 24 column tiles x 256 columns per lane are its 786432 entries. -/
theorem out_eq (c : Dev nD) (t : Fin cfg0.N) (h1 : t.val % 24 = 23) (r : Fin 32) (u : Fin 1) :
    (outsAt0 m c t.val t.isLt).1 (ix2 r u) = ∑ n ∈ range (24 * (256 * 128)), elt m c (32 * (t.val / 24) + r.val) n := by
  have h0 : ¬t.val % 24 = 0 := by omega
  have hC := outsAt0_C m c t h0 h1
  have hs : (outsAt0 m c t.val t.isLt).2 = step (iblk m c 0 t) (iblk m c 1 t) (iblk m c 2 t) (outsAt0 m c (t.val - 1) (Nat.lt_of_le_of_lt (Nat.sub_le _ _) t.isLt)).2 := by
    rw [hC]
    exact scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _
  have ho : (outsAt0 m c t.val t.isLt).1 = k0_pay2 ((outsAt0 m c t.val t.isLt).2) := by
    rw [hs, hC]
    exact out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) _
  rw [ho, rowSums_at]
  rw [← Cert.TileSum.sum_lanes_tiles_rows (fun n => elt m c (32 * (t.val / 24) + r.val) n) 24 256 128,
    Finset.sum_range (fun l => ∑ j ∈ range 24, ∑ k ∈ range 256, elt m c (32 * (t.val / 24) + r.val) (j * (256 * 128) + k * 128 + l))]
  refine Finset.sum_congr rfl fun l _ => ?_
  rw [acc_eq m c t.val t.isLt r l, h1]
  rfl

end Cert.KernelIdeal.Accum

end
-- ==== Proof.Result.lean ====
/- From the blocks the kernel writes to the result of its program.

   The 64 x 1 result array of the region is written in two blocks of 32 rows, each once, at the last point of its row
   block (grid points 23 and 47); what is written is, row by row, the total of that row's 786432 log-probabilities.
   Every row of the array lies in exactly the block of the last point of its row block, so after the region the array
   holds each row's total.  The one host operation after the region flattens 64 x 1 to 64: position (i, 0) becomes i. -/
import proofs.«180252_j23905787969963_2_alg».proof.Proof.Accumulate
import Idealize.ShloMosaic.Lib.Pipeline.Value
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum Cert.DiscGauss
open Finset

variable (m : (ℓ : Loc nD τ sig) → Buf (Elt Ideal) ℓ) (ρ : Dev nD → PrngReg)

/-- The log-likelihood of batch row `R`: the sum of its 786432 log-probabilities. -/
@[irreducible] def rowTotal (c : Dev nD) (R : ℕ) : EReal := ∑ n ∈ range (24 * (256 * 128)), elt m c R n

/-- The 64 x 1 array the region leaves: each row's total. -/
def column (c : Dev nD) : S64x1.Idx → EReal := fun i => rowTotal m c (i 0).val

/-- The result: each row's total, as a vector of 64. -/
def result (c : Dev nD) : S64.Idx → EReal := fun i => rowTotal m c (i 0).val

/-- The output block after a last point, at any index of the block. -/
theorem out_at (c : Dev nD) (t : Fin cfg0.N) (h1 : t.val % 24 = 23) (j : S32x1.Idx) :
    (outsAt0 m c t.val t.isLt).1 j = rowTotal m c (32 * (t.val / 24) + (j 0).val) := by
  unfold rowTotal
  exact (congrArg (outsAt0 m c t.val t.isLt).1 (eq_ix2 j)).trans (out_eq m c t h1 (j 0) (j 1))

/-- What a write-back writes is its block of `column`. -/
theorem flushed_eq (c : Dev nD) (t : Fin cfg0.N) (hf : (cfg0.win 3).flush t = true) :
    (dats m 0 c).flushed 3 t = ((cfg0.win 3).blk t).view.read (Elt Ideal) (column m c) := by
  have h1 : t.val % 24 = 23 := (flush0_3 t).mp hf
  show (cfg0.win 3).cut (grid0.coords t) ((dats m 0 c).after 3 t) = _
  rw [after0_3]
  funext j
  rw [View.read_apply]
  show (outsAt0 m c t.val t.isLt).1 ((cfg0.win 3).xinj (grid0.coords t) j) = column m c (((cfg0.win 3).blk t).view.emb j)
  rw [out_at m c t h1 ((cfg0.win 3).xinj (grid0.coords t) j)]
  unfold column
  refine congrArg (rowTotal m c) ?_
  show 32 * (t.val / 24) + (j 0).val = win0_3.index t (0 : Fin 2) * 32 + 1 * (j 0).val
  rw [(idx_facts t).2.2.2.1]
  omega

/-- An index of the 64 x 1 array is in point `t`'s block iff each coordinate is in the block's range on its axis. -/
theorem mem_blk (t : Fin cfg0.N) (i : S64x1.Idx) :
    i ∈ ((cfg0.win 3).blk t).view.set ↔ ∀ a : Fin 2, win0_3.index t a * S32x1.size a ≤ (i a).val ∧ (i a).val < win0_3.index t a * S32x1.size a + S32x1.size a := by
  show i ∈ ((View.whole main_v3).slice (win0_3.rect t)).set ↔ _
  rw [View.set_slice_whole, Rect.mem_set_unit]
  exact Iff.rfl

/-- Every row is in the block of the last point of its row block. -/
theorem cover (i : S64x1.Idx) : ∃ t : Fin cfg0.N, (cfg0.win 3).flush t = true ∧ i ∈ ((cfg0.win 3).blk t).view.set := by
  have hi0 : (i 0).val < 64 := (i 0).isLt
  have hi1 : (i 1).val < 1 := (i 1).isLt
  have hN : cfg0.N = 48 := N_0
  refine ⟨⟨24 * ((i 0).val / 32) + 23, by rw [hN]; omega⟩, (flush0_3 _).mpr (by show (24 * ((i 0).val / 32) + 23) % 24 = 23; omega), ?_⟩
  rw [mem_blk]
  obtain ⟨-, -, -, e0, e1⟩ := idx_facts ⟨24 * ((i 0).val / 32) + 23, by rw [hN]; omega⟩
  intro a
  match a with
  | ⟨0, _⟩ =>
    show win0_3.index _ (0 : Fin 2) * 32 ≤ (i 0).val ∧ (i 0).val < win0_3.index _ (0 : Fin 2) * 32 + 32
    rw [e0]
    show (24 * ((i 0).val / 32) + 23) / 24 * 32 ≤ (i 0).val ∧ (i 0).val < (24 * ((i 0).val / 32) + 23) / 24 * 32 + 32
    omega
  | ⟨1, _⟩ =>
    show win0_3.index _ (1 : Fin 2) * 1 ≤ (i 1).val ∧ (i 1).val < win0_3.index _ (1 : Fin 2) * 1 + 1
    rw [e1]
    omega

/-- So the region leaves `column` in its result array. -/
theorem final (c : Dev nD) : (dats m 0 c).arrAt 3 cfg0.N = column m c :=
  (dats m 0 c).arrAt_eq_of_cover 3 (column m c) (flushed_eq m c) (cover)

/-- The host's reshape after the region reads the column as a vector. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3) = column m c :=
    (Pipeline.withArrays_arr spec0 launch0.win.arr_inj c _ _ 3).trans (final m c)
  funext i
  show shapeCast S64 (Pipeline.withArrays (cfgs 0).spec c (V0 m c) (fun w => (dats m 0 c).arrAt w (cfgs 0).N) (Proc.tc.devRef main_v3)) shapeCasts_S64x1_S64 i = result m c i
  rw [hw]
  refine (shapeCast_apply (column m c) shapeCasts_S64x1_S64 i (ix2 (i 0) (0 : Fin 1)) (by
    rw [Shape.rowMajor_val_two, Shape.rowMajor_val_one]
    show (i 0).val * 1 + 0 = (i 0).val
    omega)).trans ?_
  unfold column result
  rfl

/-- THE RUN, READ: every weakly fair execution of the kernel's program terminates with each batch row's total in the
    result and the three arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/- The reference, read: elementwise it computes its own spelling of one element's log-probability (the stages of the
   generated read-at-an-index module, chained), then flattens each batch row to 786432 positions and sums them from
   zero.  So its result at batch row `i` is the sum over `k < 786432` of the reference's log-probability of the three
   arguments at the position the flattening sends (i, k) to. -/
import proofs.«180252_j23905787969963_2_alg».proof.Proof.Gen.ReferenceIdeal.Read
import proofs.«180252_j23905787969963_2_alg».proof.Proof.LogProb
import Idealize.ShloMosaic.Lib.ValueIdx

set_option maxRecDepth 16384

noncomputable section

namespace Cert.ReferenceIdeal.RefValue

open Idealize.ShloMosaic Idealize.ShloMosaic.ValueIdx
open Cert.ReferenceIdeal Cert.ReferenceIdeal.Read Cert.DiscGauss

/-- The reference's elementwise stage at an index is its spelling of the log-probability of the three arguments there. -/
theorem logProb_at (x0 x1 x2 : S64x3x512x512.Idx → EReal) (j : S64x3x512x512.Idx) :
    val_main_v50 (F := Ideal) x0 x1 x2 j = logProbR (x0 j) (x1 j) (x2 j) := by
  simp only [val_main_cst_apply, val_main_v0_apply, val_main_v1_apply, val_main_cst_0_apply, val_main_v2_apply, val_main_v3_apply, val_main_cst_1_apply, val_main_v4_apply, val_main_v5_apply, val_main_v6_apply, val_main_cst_2_apply, val_main_v7_apply, val_main_v8_apply, val_main_cst_3_apply, val_main_v9_apply, val_main_v10_apply, val_main_cst_4_apply, val_main_v11_apply, val_main_v12_apply, val_main_cst_5_apply, val_main_v13_apply, val_main_v14_apply, val_main_v15_apply, val_main_v16_apply, val_main_v17_apply, val_main_cst_6_apply, val_main_v18_apply, val_main_v19_apply, val_main_v20_apply, val_main_cst_7_apply, val_main_v21_apply, val_main_v22_apply, val_main_v23_apply, val_main_v24_apply, val_main_v25_apply, val_main_cst_8_apply, val_main_v26_apply, val_main_v27_apply, val_main_v28_apply, val_main_cst_9_apply, val_main_v29_apply, val_main_v30_apply, val_main_cst_10_apply, val_main_v31_apply, val_main_v32_apply, val_main_cst_11_apply, val_main_v33_apply, val_main_v34_apply, val_main_v35_apply, val_main_cst_12_apply, val_main_v36_apply, val_main_v37_apply, val_main_v38_apply, val_main_v39_apply, val_main_v40_apply, val_main_cst_13_apply, val_main_v41_apply, val_main_v42_apply, val_main_v43_apply, val_main_cst_14_apply, val_main_v44_apply, val_main_v45_apply, val_main_cst_15_apply, val_main_v46_apply, val_main_v47_apply, val_main_v48_apply, val_main_cst_16_apply, val_main_call1_v0_apply, val_main_call1_v1_apply, val_main_v49_apply, val_main_v50_apply, val_main_cst_17_apply]
  rfl

/-- The reference's result at batch row `i`: the sum over the 786432 flattened positions of the row. -/
theorem row_eq (x0 x1 x2 : S64x3x512x512.Idx → EReal) (i : S64.Idx) :
    val_main_v52 (F := Ideal) x0 x1 x2 i
      = ∑ k : Fin 786432, logProbR (x0 (idx_main_v51 (idx_main_v52 i k))) (x1 (idx_main_v51 (idx_main_v52 i k))) (x2 (idx_main_v51 (idx_main_v52 i k))) := by
  rw [val_main_v52_apply, val_main_cst_17_apply]
  show Ideal.ofBits .f32 0x00000000#32 + _ = _
  rw [Lit.zero, zero_add]
  refine Finset.sum_congr rfl fun k _ => ?_
  rw [val_main_v51_apply, logProb_at]

end Cert.ReferenceIdeal.RefValue

end
-- ==== Proof.Finite.lean ====
/- From the precondition to "every input entry is a real number".

   The precondition is the conjunction, over the three inputs, of  all(|a| < +∞).  Each `all` is a reduction by `and`
   from 1 over every index, so where the conjunction is 1 every comparison is 1; and an extended real whose absolute
   value is strictly below +∞ is neither infinity, hence a real.  This is the only place the precondition is used: the
   two programs' per-element terms agree on reals, not on the infinities (the products there do not distribute). -/
import proofs.«180252_j23905787969963_2_alg».proof.Pre_finite_inputs
import Idealize.ShloMosaic.Lib.ReduceAll
import Idealize.ShloMosaic.Lib.ValueIdx
import Idealize.ShloMosaic.PureOps.Ideal.Laws

noncomputable section

namespace Cert.DiscGauss.Finite

open Idealize.ShloMosaic Idealize.ShloMosaic.ValueIdx Cert.Pre_finite_inputs

instance : Subsingleton S_.Idx := ⟨fun a b => funext fun d => d.elim0⟩

/-- An extended real whose absolute value is below +∞ is a real. -/
theorem real_of_abs_lt (x : EReal) (h : FloatOps.cmpf (F := Ideal) (φ := .f32) .olt (FloatOps.hostAbsf x) (FloatOps.ofBits .f32 0x7F800000#32) = 1#1) :
    ∃ r : ℝ, x = (r : EReal) := by
  induction x using EReal.rec with
  | bot => exfalso; revert h; simp [Ideal.cmpf_def, Ideal.absf_def, Ideal.cmp, Ideal.ofBits, Ideal.ieee]
  | coe r => exact ⟨r, rfl⟩
  | top => exfalso; revert h; simp [Ideal.cmpf_def, Ideal.absf_def, Ideal.cmp, Ideal.ofBits, Ideal.ieee]

variable [Facts]

theorem finite_of_pre (a0 a1 a2 : FVec Ideal S64x3x512x512 .f32)
    (h : fn (F := Ideal) a0 a1 a2 = fun _ => 1#1) :
    (∀ j, ∃ r : ℝ, a0 j = (r : EReal)) ∧ (∀ j, ∃ r : ℝ, a1 j = (r : EReal)) ∧ (∀ j, ∃ r : ℝ, a2 j = (r : EReal)) := by
  have e := congrFun h ix0
  unfold fn at e
  dsimp only at e
  have e' : IntOp.andi (IntOp.andi (_ : BitVec 1) (_ : BitVec 1)) (_ : BitVec 1) = 1#1 := e
  obtain ⟨e01, e2⟩ := IntOp.andi_eq_one.1 e'
  obtain ⟨e0, e1⟩ := IntOp.andi_eq_one.1 e01
  exact ⟨fun j => real_of_abs_lt (a0 j) (Host.reduce_andi_all _ _ _ _ ix0 e0 j),
    fun j => real_of_abs_lt (a1 j) (Host.reduce_andi_all _ _ _ _ ix0 e1 j),
    fun j => real_of_abs_lt (a2 j) (Host.reduce_andi_all _ _ _ _ ix0 e2 j)⟩

end Cert.DiscGauss.Finite

end
-- ==== Proof.Bridge.lean ====
/- The two results are one function of the arguments.

   Both programs flatten each 64 x 3 x 512 x 512 argument to 64 x 786432 in row-major order, so position (i, k) of the
   flattened array is one and the same position of the argument on both sides.  The kernel's result at batch row `i` is
   the sum over k < 786432 of ITS spelling of the log-probability at that position, the reference's the same sum of its
   own spelling; on arguments that hold only real numbers the two spellings agree term by term. -/
import proofs.«180252_j23905787969963_2_alg».proof.Proof.Result
import proofs.«180252_j23905787969963_2_alg».proof.Proof.RefValue
import proofs.«180252_j23905787969963_2_alg».proof.Proof.Finite

set_option maxRecDepth 16384

noncomputable section

namespace Cert.Bridge

open Idealize.ShloMosaic Idealize.ShloMosaic.TcCoe Idealize.SL.Sem Idealize.ShloMosaic.ValueIdx
open Cert.KernelIdeal Cert.KernelIdeal.Gen Cert.KernelIdeal.Accum Cert.KernelIdeal.Result Cert.DiscGauss
open Finset

variable (m : (ℓ : Loc nD τ sig) → Buf (Elt Ideal) ℓ)

/-- The position of entry `j` of a flattened 64 x 786432 array in the 64 x 3 x 512 x 512 argument: the reference's own
    flattening map. -/
abbrev unflat (j : S64x786432.Idx) : S64x3x512x512.Idx := Cert.ReferenceIdeal.Read.idx_main_v51 j

/-- A flattened argument at `j` is the argument at `unflat j`. -/
theorem flat_apply (A : S64x3x512x512.Idx → EReal) (j : S64x786432.Idx) :
    shapeCast S64x786432 A shapeCasts_S64x3x512x512_S64x786432 j = A (unflat j) :=
  shapeCast_apply A shapeCasts_S64x3x512x512_S64x786432 j (unflat j)
    (by rewrite [Shape.rowMajor_val_four, Shape.rowMajor_val_two]; have h0 : (j 0).val < 64 := (j 0).isLt; have h1 : (j 1).val < 786432 := (j 1).isLt; show ((((j 0).val * 786432 + (j 1).val) / 786432 * 3 + ((j 0).val * 786432 + (j 1).val) / 262144 % 3) * 512 + ((j 0).val * 786432 + (j 1).val) / 512 % 512) * 512 + ((j 0).val * 786432 + (j 1).val) % 512 = (j 0).val * 786432 + (j 1).val; omega)

/-- The three arrays the region finds are the three arguments flattened by the host before it. -/
theorem arrM_eq (c : Dev nD) : arrM m c = shapeCast S64x786432 (m ((c : Thread nD τ).loc main_arg0)) shapeCasts_S64x3x512x512_S64x786432 := by
  show StableHlo.after hostOps0 (fun b => m (c, b)) (Proc.devRef .tc main_v0) = _
  after_results
  rfl
theorem arrL_eq (c : Dev nD) : arrL m c = shapeCast S64x786432 (m ((c : Thread nD τ).loc main_arg1)) shapeCasts_S64x3x512x512_S64x786432 := by
  show StableHlo.after hostOps0 (fun b => m (c, b)) (Proc.devRef .tc main_v1) = _
  after_results
  rfl
theorem arrX_eq (c : Dev nD) : arrX m c = shapeCast S64x786432 (m ((c : Thread nD τ).loc main_arg2)) shapeCasts_S64x3x512x512_S64x786432 := by
  show StableHlo.after hostOps0 (fun b => m (c, b)) (Proc.devRef .tc main_v2) = _
  after_results
  rfl

/-- The kernel's result at batch row `i`, over the arguments: the sum over `k < 786432` of the kernel's spelling of the
    log-probability at the position the flattening sends (i, k) to. -/
theorem result_apply (c : Dev nD) (i : S64.Idx) :
    result m c i = ∑ k : Fin 786432,
      logProbK (m ((c : Thread nD τ).loc main_arg0) (unflat (ix2 (i 0) k))) (m ((c : Thread nD τ).loc main_arg1) (unflat (ix2 (i 0) k)))
        (m ((c : Thread nD τ).loc main_arg2) (unflat (ix2 (i 0) k))) := by
  unfold result rowTotal
  rw [show (24 * (256 * 128) : ℕ) = 786432 from rfl, Finset.sum_range (fun n => elt m c (i 0).val n)]
  refine Finset.sum_congr rfl fun k _ => ?_
  unfold elt
  rw [dif_pos ⟨(i 0).isLt, k.isLt⟩, arrM_eq, arrL_eq, arrX_eq, flat_apply, flat_apply, flat_apply]

/-- THE TWO RESULTS AGREE. On arguments that are the kernel's (`h0 h1 h2`) and hold only reals (`hf`), the reference's
    result is the kernel's: row by row both are sums over the same 786432 positions, and position by position the two
    spellings of the log-probability agree on reals. -/
theorem ref_eq_result (c : Dev nD) (x0 x1 x2 : S64x3x512x512.Idx → EReal)
    (h0 : x0 = m ((c : Thread nD τ).loc main_arg0)) (h1 : x1 = m ((c : Thread nD τ).loc main_arg1))
    (h2 : x2 = m ((c : Thread nD τ).loc main_arg2))
    (hf : (∀ j, ∃ r : ℝ, m ((c : Thread nD τ).loc main_arg0) j = (r : EReal))
      ∧ (∀ j, ∃ r : ℝ, m ((c : Thread nD τ).loc main_arg1) j = (r : EReal))
      ∧ (∀ j, ∃ r : ℝ, m ((c : Thread nD τ).loc main_arg2) j = (r : EReal))) :
    Cert.ReferenceIdeal.Read.val_main_v52 (F := Ideal) x0 x1 x2 = result m c := by
  subst h0 h1 h2
  funext i
  rw [Cert.ReferenceIdeal.RefValue.row_eq, result_apply]
  refine Finset.sum_congr rfl fun k _ => ?_
  have e : Cert.ReferenceIdeal.Read.idx_main_v52 i k = ix2 (i 0) k :=
    funext fun a => Fin.ext (by match a with | ⟨0, _⟩ => rfl | ⟨1, _⟩ => rfl)
  rw [e]
  obtain ⟨a, ha⟩ := hf.1 (unflat (ix2 (i 0) k))
  obtain ⟨b, hb⟩ := hf.2.1 (unflat (ix2 (i 0) k))
  obtain ⟨d, hd⟩ := hf.2.2 (unflat (ix2 (i 0) k))
  show logProbR (m ((c : Thread nD τ).loc main_arg0) (unflat (ix2 (i 0) k))) (m ((c : Thread nD τ).loc main_arg1) (unflat (ix2 (i 0) k))) (m ((c : Thread nD τ).loc main_arg2) (unflat (ix2 (i 0) k)))
    = logProbK (m ((c : Thread nD τ).loc main_arg0) (unflat (ix2 (i 0) k))) (m ((c : Thread nD τ).loc main_arg1) (unflat (ix2 (i 0) k))) (m ((c : Thread nD τ).loc main_arg2) (unflat (ix2 (i 0) k)))
  rw [ha, hb, hd]
  exact (logProb_eq a b d).symm

end Cert.Bridge

end
-- ==== Proof.lean ====
/- Discretized Gaussian log-likelihood: the tiled kernel against the one-pass reference, over the extended reals.

   For mean, log-variance and observation arrays of shape 64 x 3 x 512 x 512, both programs compute for each of the 64
   batch rows the sum, over the row's 786432 entries, of
        log max(floor, cdf(e·(c + h)) − cdf(e·(c − h))),     e = exp(−logvar),  c = mean − centre(x),
   with centre(x) the centre of the bin of 256 that x falls into.  They differ in three ways, none of which changes the
   value on finite inputs:
     * the affine maps around the rounding  (x·127.5 + 127.5  against  (x + 1)/2·255;  idx/128 − 255/256  against
       (2·idx + 1)/256 − 1): equal real polynomials (Proof/LogProb.lean);
     * the difference of the two CDF values  (1/2·(tanh a − tanh b)  against  1/2·(1 + tanh a) − 1/2·(1 + tanh b)):
       equal because tanh values are real (Proof/LogProb.lean);
     * the order of summation: the kernel walks a 2 x 24 grid of 32 x 32768 tiles, keeps 128 lane-wise partial sums per
       row in an accumulator across the 24 tiles of a row block, and sums the lanes once at the end, where the reference
       sums each row in one pass — the same 786432 terms, and extended-real addition is commutative and associative
       (Proof/Accumulate.lean, Proof/LibTileSum.lean).
   The precondition (every input finite) is used exactly once, to make the per-element terms real (Proof/Finite.lean).
   The kernel's run is read off its frame run case by case (Proof/CaseValues.lean, Proof/PayloadAt.lean), the blocks
   it writes are assembled into its result (Proof/Result.lean), the reference is read through its generated stages
   (Proof/RefValue.lean), and Proof/Bridge.lean states that the two results are one function of the arguments. -/
import proofs.«180252_j23905787969963_2_alg».proof.Defs
import proofs.«180252_j23905787969963_2_alg».proof.Proof.Gen.Kernel
import proofs.«180252_j23905787969963_2_alg».proof.Proof.Gen.Kernel.Skeleton
import proofs.«180252_j23905787969963_2_alg».proof.Proof.Gen.Kernel.Launch
import proofs.«180252_j23905787969963_2_alg».proof.Proof.Gen.Kernel.Points
import proofs.«180252_j23905787969963_2_alg».proof.Proof.Gen.Kernel.Frame
import proofs.«180252_j23905787969963_2_alg».proof.Proof.Gen.KernelIdeal
import proofs.«180252_j23905787969963_2_alg».proof.Proof.Gen.KernelIdeal.Skeleton
import proofs.«180252_j23905787969963_2_alg».proof.Proof.Gen.KernelIdeal.Launch
import proofs.«180252_j23905787969963_2_alg».proof.Proof.Gen.KernelIdeal.Points
import proofs.«180252_j23905787969963_2_alg».proof.Proof.Gen.KernelIdeal.Frame
import proofs.«180252_j23905787969963_2_alg».proof.Proof.Gen.ReferenceIdeal
import proofs.«180252_j23905787969963_2_alg».proof.Proof.Gen.ReferenceIdeal.Run
import proofs.«180252_j23905787969963_2_alg».proof.Proof.Gen.ReferenceIdeal.Read
import proofs.«180252_j23905787969963_2_alg».proof.Proof.Gen.Pre_finite_inputs
import proofs.«180252_j23905787969963_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on finite arguments both programs end with each batch row's log-likelihood: the kernel's
    run leaves the row totals of its spelling, the reference's run those of its own, and the two are one function. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  exact Cert.Bridge.ref_eq_result m c _ _ _ (hagree c).1 (hagree c).2.1 (hagree c).2.2
    (Cert.DiscGauss.Finite.finite_of_pre _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
